-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 65
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S256x128, .f32⟩
  | .hbm, ⟨43, _⟩ => ⟨S1x128, .f32⟩
  | .hbm, ⟨44, _⟩ => ⟨S100000x128, .f32⟩
  | .hbm, ⟨45, _⟩ => ⟨S100000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S256x128, .f32⟩
  | .hbm, ⟨63, _⟩ => ⟨S1x128, .f32⟩
  | .hbm, ⟨64, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S256x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  concatenates_S128x128_S128x128_S256x128_d0 : Shape.Concatenates [S128x128, S128x128] S256x128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.HostLayout.lean ====
/-
  The arrays the host prepares for the tiled calls, read at coordinates.

  The reciprocal degrees are `1 / d` for the clamped degrees `d`, stored as a column; the two weight matrices of a layer
  are transposed and stacked, so row `k` of the stack is input feature `k` of the first matrix for `k < 128` and input
  feature `k - 128` of the second otherwise; the bias is stored as a row.
-/
import proofs.«153407_j5428838662375_2_alg».proof.Proof.Gen.KernelIdeal
import proofs.«153407_j5428838662375_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostLayout

open Cert.KernelIdeal Cert.KernelIdeal.Gen Idealize.ShloMosaic Idealize.ShloMosaic.ValueIdx

/-- The column of reciprocal degrees. -/
def recipCol (D : FVec Ideal S100000 .f32) : FVec Ideal S100000x1 .f32 :=
  shapeCast S100000x1
    (Host.divf (broadcastInDim S100000 ![] bcast_S_S100000 (constant (F := Ideal) S_ .f32 0x3F800000#32)) D)
    shapeCasts_S100000_S100000x1

/-- Two weight matrices transposed and stacked. -/
def stack (wl wr : FVec Ideal S128x128 .f32) : FVec Ideal S256x128 .f32 :=
  concatenate S256x128 0
    [⟨S128x128, transpose S128x128 [1, 0] wl transposes_S128x128_S128x128_1_0⟩,
     ⟨S128x128, transpose S128x128 [1, 0] wr transposes_S128x128_S128x128_1_0⟩]
    concatenates_S128x128_S128x128_S256x128_d0

/-- The bias as a row. -/
def biasRow (b : FVec Ideal S128 .f32) : FVec Ideal S1x128 .f32 := shapeCast S1x128 b shapeCasts_S128_S1x128

/-- Row `n` of the column is one over the clamped degree of node `n`. -/
theorem recipCol_apply (D : FVec Ideal S100000 .f32) (n : Fin 100000) :
    recipCol D (ix2 n (0 : Fin 1)) = Ideal.div (Ideal.ofBits .f32 0x3F800000#32) (D (ix1 n)) := by
  unfold recipCol
  rw [Cert.LibKeepdims.shapeCast_a_a1_apply]
  show Ideal.div (constant (F := Ideal) S_ .f32 0x3F800000#32 _) (D (ix1 n)) = _
  rw [constant_apply]

/-- The upper half of the stack is the first matrix transposed. -/
theorem stack_upper (wl wr : FVec Ideal S128x128 .f32) (k q : Fin 128) :
    stack wl wr (ix2 (⟨k.val, by omega⟩ : Fin 256) q) = wl (ix2 q k) := by
  unfold stack
  rw [concatenate_pair_apply_left (t := S256x128) (0 : Fin 2) _ _ concatenates_S128x128_S128x128_S256x128_d0
    (ix2 (⟨k.val, by omega⟩ : Fin 256) q) rfl (ix2 k q) (fun ax => match ax with | ⟨0, _⟩ => rfl | ⟨1, _⟩ => rfl)]
  exact transpose_ix2_apply wl transposes_S128x128_S128x128_1_0 k q

/-- The lower half is the second matrix transposed. -/
theorem stack_lower (wl wr : FVec Ideal S128x128 .f32) (k q : Fin 128) :
    stack wl wr (ix2 (⟨128 + k.val, by omega⟩ : Fin 256) q) = wr (ix2 q k) := by
  unfold stack
  rw [concatenate_pair_apply_right (t := S256x128) (0 : Fin 2) _ _ concatenates_S128x128_S128x128_S256x128_d0
    (ix2 (⟨128 + k.val, by omega⟩ : Fin 256) q) rfl rfl (ix2 k q)
    (fun ax hax => match ax with | ⟨0, _⟩ => absurd rfl hax | ⟨1, _⟩ => rfl)
    (by show k.val + 128 = 128 + k.val; omega)]
  exact transpose_ix2_apply wr transposes_S128x128_S128x128_1_0 k q

/-- The bias row at column `q`. -/
theorem biasRow_apply (b : FVec Ideal S128 .f32) (q : Fin 128) : biasRow b (ix2 (0 : Fin 1) q) = b (ix1 q) := by
  unfold biasRow
  exact shapeCast_a_1a_apply b shapeCasts_S128_S1x128 0 q

end Cert.KernelIdeal.HostLayout

end
-- ==== Proof.Layer.lean ====
/-
  One mean-aggregating graph-convolution layer, as mathematics on the extended reals.

  For a node `n` and an output feature `q` the layer's value before any activation is

      (∑ₖ mean n k · w_l q k  +  b q)  +  ∑ₖ x n k · w_r q k,

  where `mean n k` is the sum of the neighbours' features divided by the clamped in-degree `d n = max (deg n) 1`.
  Two ways of computing it are compared here. One divides the neighbour sum by `d n`, forms the two products with
  the weight matrices separately and adds the bias between them. The other multiplies the neighbour sum by the
  reciprocal `1 / d n`, puts the mean and the node's own features side by side as one row of length 256, multiplies
  once by the two weight matrices transposed and stacked, and adds the bias last. They agree because a quotient by a
  non-zero extended real is the product with its reciprocal (an infinite divisor included: both sides are then zero), a
  sum over 256 terms is the sum over its two halves, and addition of extended reals is commutative and associative. No
  finiteness is used.
-/
import Idealize.ShloMosaic.PureOps.Ideal
import Idealize.ShloMosaic.Lib.ValueIdx

noncomputable section

namespace Cert.Sage

open Idealize.ShloMosaic Idealize.ShloMosaic.ValueIdx

/-- The bit pattern of `1.0` denotes the real one. -/
theorem ofBits_one : Ideal.ofBits .f32 0x3F800000#32 = 1 := by
  simp [Ideal.ofBits, Ideal.ieee, -EReal.coe_mul]; norm_num

/-- A degree clamped below by one is not zero. -/
theorem clamp_ne_zero (d : EReal) : max d (Ideal.ofBits .f32 0x3F800000#32) ≠ 0 := by
  rw [ofBits_one]
  exact ne_of_gt (lt_of_lt_of_le zero_lt_one (le_max_right d 1))

/-- Multiplying by the reciprocal of a non-zero extended real is dividing by it. -/
theorem mul_recip {y : EReal} (hy : y ≠ 0) (one : EReal) (h1 : one = 1) (x : EReal) :
    x * Ideal.div one y = Ideal.div x y := by
  subst h1
  unfold Ideal.div
  rw [if_neg hy, if_neg hy, one_mul]

/-- A sum over 256 terms is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The layer's value before the activation at node `n` and output feature `q`, from the mean of the neighbours'
    features, the node features, the two weight matrices (stored output feature by input feature) and the bias. -/
def convAt (mean x : (⟨2, ![100000, 128]⟩ : Shape).Idx → EReal) (wl wr : (⟨2, ![128, 128]⟩ : Shape).Idx → EReal)
    (b : (⟨1, ![128]⟩ : Shape).Idx → EReal) (n : Fin 100000) (q : Fin 128) : EReal :=
  ((∑ k : Fin 128, mean (ix2 n k) * wl (ix2 q k)) + b (ix1 q)) + ∑ k : Fin 128, x (ix2 n k) * wr (ix2 q k)

/-- The same as an array. -/
def conv (mean x : (⟨2, ![100000, 128]⟩ : Shape).Idx → EReal) (wl wr : (⟨2, ![128, 128]⟩ : Shape).Idx → EReal)
    (b : (⟨1, ![128]⟩ : Shape).Idx → EReal) : (⟨2, ![100000, 128]⟩ : Shape).Idx → EReal :=
  fun i => convAt mean x wl wr b (i 0) (i 1)

/-- The mean of the neighbours' features at node `n`, feature `k`: the neighbour sum over the node's clamped degree. -/
def meanAt (s : (⟨2, ![100000, 128]⟩ : Shape).Idx → EReal) (d : (⟨1, ![100000]⟩ : Shape).Idx → EReal)
    (n : Fin 100000) (k : Fin 128) : EReal :=
  Ideal.div (s (ix2 n k)) (d (ix1 n))

/-- The same as an array. -/
def mean (s : (⟨2, ![100000, 128]⟩ : Shape).Idx → EReal) (d : (⟨1, ![100000]⟩ : Shape).Idx → EReal) :
    (⟨2, ![100000, 128]⟩ : Shape).Idx → EReal :=
  fun j => meanAt s d (j 0) (j 1)

theorem mean_apply (s : (⟨2, ![100000, 128]⟩ : Shape).Idx → EReal) (d : (⟨1, ![100000]⟩ : Shape).Idx → EReal)
    (n : Fin 100000) (k : Fin 128) : mean s d (ix2 n k) = Ideal.div (s (ix2 n k)) (d (ix1 n)) := rfl

/-- The hidden layer: the first convolution of the node features `x` over the aggregation `A`, clamped below at
    `zero`. -/
def hidden (A : ((⟨2, ![100000, 128]⟩ : Shape).Idx → EReal) → (⟨2, ![100000, 128]⟩ : Shape).Idx → EReal)
    (d : (⟨1, ![100000]⟩ : Shape).Idx → EReal) (x : (⟨2, ![100000, 128]⟩ : Shape).Idx → EReal)
    (wl wr : (⟨2, ![128, 128]⟩ : Shape).Idx → EReal) (b : (⟨1, ![128]⟩ : Shape).Idx → EReal) (zero : EReal) :
    (⟨2, ![100000, 128]⟩ : Shape).Idx → EReal :=
  fun i => max (conv (mean (A x) d) x wl wr b i) zero

/-- The two-layer network: the second convolution of the hidden layer over the same aggregation and degrees. -/
def net (A : ((⟨2, ![100000, 128]⟩ : Shape).Idx → EReal) → (⟨2, ![100000, 128]⟩ : Shape).Idx → EReal)
    (d : (⟨1, ![100000]⟩ : Shape).Idx → EReal) (x : (⟨2, ![100000, 128]⟩ : Shape).Idx → EReal)
    (w1l w1r : (⟨2, ![128, 128]⟩ : Shape).Idx → EReal) (b1 : (⟨1, ![128]⟩ : Shape).Idx → EReal)
    (w2l w2r : (⟨2, ![128, 128]⟩ : Shape).Idx → EReal) (b2 : (⟨1, ![128]⟩ : Shape).Idx → EReal) (zero : EReal) :
    (⟨2, ![100000, 128]⟩ : Shape).Idx → EReal :=
  conv (mean (A (hidden A d x w1l w1r b1 zero)) d) (hidden A d x w1l w1r b1 zero) w2l w2r b2

/-- What a tiled call leaves at row `n`, column `q`, from its five operand arrays: the neighbour sums `s`, the column
    `r` of reciprocal degrees, the node features `x`, the two weight matrices transposed and stacked as `W`, the bias
    as a row `b`. -/
def fusedAt (s : (⟨2, ![100000, 128]⟩ : Shape).Idx → EReal) (r : (⟨2, ![100000, 1]⟩ : Shape).Idx → EReal)
    (x : (⟨2, ![100000, 128]⟩ : Shape).Idx → EReal) (W : (⟨2, ![256, 128]⟩ : Shape).Idx → EReal)
    (b : (⟨2, ![1, 128]⟩ : Shape).Idx → EReal) (n : Fin 100000) (q : Fin 128) : EReal :=
  ((∑ k : Fin 128, (s (ix2 n k) * r (ix2 n (0 : Fin 1))) * W (ix2 (⟨k.val, by omega⟩ : Fin 256) q))
    + ∑ k : Fin 128, x (ix2 n k) * W (ix2 (⟨128 + k.val, by omega⟩ : Fin 256) q)) + b (ix2 (0 : Fin 1) q)

/-- The same as an array. -/
def fused (s : (⟨2, ![100000, 128]⟩ : Shape).Idx → EReal) (r : (⟨2, ![100000, 1]⟩ : Shape).Idx → EReal)
    (x : (⟨2, ![100000, 128]⟩ : Shape).Idx → EReal) (W : (⟨2, ![256, 128]⟩ : Shape).Idx → EReal)
    (b : (⟨2, ![1, 128]⟩ : Shape).Idx → EReal) : (⟨2, ![100000, 128]⟩ : Shape).Idx → EReal :=
  fun i => fusedAt s r x W b (i 0) (i 1)

/-- The fused form is the layer's value: with the column holding the reciprocals of the non-zero clamped degrees, the
    stacked weights the two matrices transposed, and the row the bias. -/
theorem fusedAt_eq_convAt (s x : (⟨2, ![100000, 128]⟩ : Shape).Idx → EReal) (r : (⟨2, ![100000, 1]⟩ : Shape).Idx → EReal)
    (W : (⟨2, ![256, 128]⟩ : Shape).Idx → EReal) (b' : (⟨2, ![1, 128]⟩ : Shape).Idx → EReal)
    (d : (⟨1, ![100000]⟩ : Shape).Idx → EReal) (wl wr : (⟨2, ![128, 128]⟩ : Shape).Idx → EReal)
    (b : (⟨1, ![128]⟩ : Shape).Idx → EReal) (one : EReal) (h1 : one = 1) (hd : ∀ n, d n ≠ 0)
    (hr : ∀ n : Fin 100000, r (ix2 n (0 : Fin 1)) = Ideal.div one (d (ix1 n)))
    (hl : ∀ k q : Fin 128, W (ix2 (⟨k.val, by omega⟩ : Fin 256) q) = wl (ix2 q k))
    (hw : ∀ k q : Fin 128, W (ix2 (⟨128 + k.val, by omega⟩ : Fin 256) q) = wr (ix2 q k))
    (hb : ∀ q : Fin 128, b' (ix2 (0 : Fin 1) q) = b (ix1 q)) (n : Fin 100000) (q : Fin 128) :
    fusedAt s r x W b' n q = convAt (mean s d) x wl wr b n q := by
  unfold fusedAt convAt
  simp only [hr, hl, hw, hb, mean_apply, mul_recip (hd _) one h1]
  exact add_right_comm _ _ _

theorem fused_eq_conv (s x : (⟨2, ![100000, 128]⟩ : Shape).Idx → EReal) (r : (⟨2, ![100000, 1]⟩ : Shape).Idx → EReal)
    (W : (⟨2, ![256, 128]⟩ : Shape).Idx → EReal) (b' : (⟨2, ![1, 128]⟩ : Shape).Idx → EReal)
    (d : (⟨1, ![100000]⟩ : Shape).Idx → EReal) (wl wr : (⟨2, ![128, 128]⟩ : Shape).Idx → EReal)
    (b : (⟨1, ![128]⟩ : Shape).Idx → EReal) (one : EReal) (h1 : one = 1) (hd : ∀ n, d n ≠ 0)
    (hr : ∀ n : Fin 100000, r (ix2 n (0 : Fin 1)) = Ideal.div one (d (ix1 n)))
    (hl : ∀ k q : Fin 128, W (ix2 (⟨k.val, by omega⟩ : Fin 256) q) = wl (ix2 q k))
    (hw : ∀ k q : Fin 128, W (ix2 (⟨128 + k.val, by omega⟩ : Fin 256) q) = wr (ix2 q k))
    (hb : ∀ q : Fin 128, b' (ix2 (0 : Fin 1) q) = b (ix1 q)) :
    fused s r x W b' = conv (mean s d) x wl wr b :=
  funext fun i => fusedAt_eq_convAt s x r W b' d wl wr b one h1 hd hr hl hw hb (i 0) (i 1)

end Cert.Sage

end
-- ==== Proof.RefLayers.lean ====
/-
  The reference, layer by layer.

  Each of the reference's two layers divides the scattered sum of gathered neighbour rows by the clamped in-degree,
  multiplies by the first weight matrix transposed, adds the bias, and adds the node features times the second weight
  matrix transposed: the layer function of the specification, index by index. The second layer gathers and scatters
  with the same edge lists as the first, and its degrees are the first's.
-/
import proofs.«153407_j5428838662375_2_alg».proof.Proof.Gen.ReferenceIdeal.Read
import proofs.«153407_j5428838662375_2_alg».proof.Proof.Layer

noncomputable section

namespace Cert.ReferenceIdeal.Layers

open Cert.ReferenceIdeal Cert.ReferenceIdeal.Gen Cert.ReferenceIdeal.Read Idealize.ShloMosaic Idealize.ShloMosaic.ValueIdx

/-- The aggregation: the rows of `x` named by the edges' sources, summed into the rows named by their targets. -/
def agg (x7 : (⟨S2x1600000, .i32⟩ : BufTy).Contents (Elt Ideal)) (x : FVec Ideal S100000x128 .f32) :
    FVec Ideal S100000x128 .f32 :=
  Host.scatterAdd (F := Ideal) (φ := .f32) scatter_S100000x128_S1600000x1_S1600000x128_1_0_0_1 (val_main_v11 (F := Ideal))
    (val_main_v12 (F := Ideal) x7)
    (Host.gather gather_S100000x128_S1600000x1_S1600000x128_1_0_n_n_0_1_1128 x (val_main_v9 (F := Ideal) x7) :
      FVec Ideal S1600000x128 .f32)

/-- The in-degree of every node, clamped below at one. -/
def deg (x7 : (⟨S2x1600000, .i32⟩ : BufTy).Contents (Elt Ideal)) : FVec Ideal S100000 .f32 :=
  val_main_v19 (F := Ideal) x7

theorem agg_first (x0 : (⟨S100000x128, .f32⟩ : BufTy).Contents (Elt Ideal)) (x7 : (⟨S2x1600000, .i32⟩ : BufTy).Contents (Elt Ideal)) :
    val_main_v13 (F := Ideal) x0 x7 = agg x7 x0 := rfl

theorem agg_second (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x1600000, .i32⟩ : BufTy).Contents (Elt Ideal)) :
    val_main_v41 (F := Ideal) x0 x1 x2 x3 x7 = agg x7 (val_main_v31 (F := Ideal) x0 x1 x2 x3 x7) := rfl

theorem deg_second (x7 : (⟨S2x1600000, .i32⟩ : BufTy).Contents (Elt Ideal)) : val_main_v47 (F := Ideal) x7 = deg x7 := rfl

/-- The clamped degree is the larger of the degree and one. -/
theorem deg_apply (x7 : (⟨S2x1600000, .i32⟩ : BufTy).Contents (Elt Ideal)) (j : S100000.Idx) :
    deg x7 j = max (val_main_v17 (F := Ideal) x7 j) (Ideal.ofBits .f32 0x3F800000#32) := by
  unfold deg
  rw [val_main_v19_apply, val_main_v18_apply, val_main_cst_3_apply, Ideal.maximumf_def, Ideal.ofBits_def]

theorem deg_ne_zero (x7 : (⟨S2x1600000, .i32⟩ : BufTy).Contents (Elt Ideal)) (j : S100000.Idx) : deg x7 j ≠ 0 := by
  rw [deg_apply]; exact Cert.Sage.clamp_ne_zero _

/-- The first layer's quotient is the mean of the specification. -/
theorem mean_first (x0 : (⟨S100000x128, .f32⟩ : BufTy).Contents (Elt Ideal)) (x7 : (⟨S2x1600000, .i32⟩ : BufTy).Contents (Elt Ideal)) :
    val_main_v22 (F := Ideal) x0 x7 = Cert.Sage.mean (agg x7 x0) (deg x7) := by
  funext j
  obtain ⟨n, k, rfl⟩ : ∃ (n : Fin 100000) (k : Fin 128), j = ix2 n k := ⟨j 0, j 1, eq_ix2 j⟩
  have e : idx_main_v20 (idx_main_v21 (ix2 n k)) = ix1 n := funext fun a => match a with | ⟨0, _⟩ => rfl
  rw [val_main_v22_apply, val_main_v21_apply, val_main_v20_apply, e, Cert.Sage.mean_apply, Ideal.hostDivf_def, agg_first]
  rfl

/-- The second layer's quotient likewise, of the hidden layer. -/
theorem mean_second (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x1600000, .i32⟩ : BufTy).Contents (Elt Ideal)) :
    val_main_v50 (F := Ideal) x0 x1 x2 x3 x7 = Cert.Sage.mean (agg x7 (val_main_v31 (F := Ideal) x0 x1 x2 x3 x7)) (deg x7) := by
  funext j
  obtain ⟨n, k, rfl⟩ : ∃ (n : Fin 100000) (k : Fin 128), j = ix2 n k := ⟨j 0, j 1, eq_ix2 j⟩
  have e : idx_main_v48 (idx_main_v49 (ix2 n k)) = ix1 n := funext fun a => match a with | ⟨0, _⟩ => rfl
  rw [val_main_v50_apply, val_main_v49_apply, val_main_v48_apply, e, deg_second, agg_second, Cert.Sage.mean_apply, Ideal.hostDivf_def]

end Cert.ReferenceIdeal.Layers

end
-- ==== Proof.Stages.lean ====
/-
  The arrays each tiled call finds, as functions of what the host operations before it read.

  Before the first call the host forms, from the edge lists and the node features: the neighbour sums (each source's
  row, carried through a narrower float format that is the identity on the extended reals, added into its target's
  row), the column of reciprocal clamped degrees, the stacked transposed weights and the bias row. Between the calls
  it forms the same from the first call's result, with the second layer's weights and bias; the edge lists' two rows
  and the reciprocal degrees are those computed before the first call. The neighbour sums and the clamped degrees are
  the reference's own, term for term.
-/
import proofs.«153407_j5428838662375_2_alg».proof.Proof.Gen.KernelIdeal.Frame
import proofs.«153407_j5428838662375_2_alg».proof.Proof.HostLayout
import proofs.«153407_j5428838662375_2_alg».proof.Proof.RefLayers
import Idealize.ShloMosaic.Lib.StableHlo.Run

set_option maxRecDepth 16384

noncomputable section

namespace Cert.KernelIdeal.Stages

open Cert.KernelIdeal Cert.KernelIdeal.Gen Cert.KernelIdeal.HostLayout
open Idealize.ShloMosaic Idealize.ShloMosaic.TcCoe Idealize.SL.Sem Idealize.ShloMosaic.StableHlo

variable (W : Valuation τ sig (Elt Ideal))

/-! ## Before the first call -/

set_option maxHeartbeats 4000000 in
theorem sums_first : after (hostOps0 (F := Ideal)) W (Proc.devRef .tc main_v24)
    = Cert.ReferenceIdeal.Layers.agg (W (Proc.devRef .tc main_arg7)) (W (Proc.devRef .tc main_arg0)) := by
  after_results_simp
  rfl

theorem recip_first : after (hostOps0 (F := Ideal)) W (Proc.devRef .tc main_v12)
    = recipCol (Cert.ReferenceIdeal.Layers.deg (W (Proc.devRef .tc main_arg7))) := by
  after_results
  rfl

theorem feats_first : after (hostOps0 (F := Ideal)) W (Proc.devRef .tc main_arg0) = W (Proc.devRef .tc main_arg0) := by
  after_results

set_option maxHeartbeats 4000000 in
theorem weights_first : after (hostOps0 (F := Ideal)) W (Proc.devRef .tc main_v27)
    = stack (W (Proc.devRef .tc main_arg1)) (W (Proc.devRef .tc main_arg3)) := by
  after_results_simp
  rfl

theorem bias_first : after (hostOps0 (F := Ideal)) W (Proc.devRef .tc main_v28) = biasRow (W (Proc.devRef .tc main_arg2)) := by
  after_results
  rfl

theorem src_first : after (hostOps0 (F := Ideal)) W (Proc.devRef .tc main_v1)
    = Cert.ReferenceIdeal.Read.val_main_v1 (F := Ideal) (W (Proc.devRef .tc main_arg7)) := by
  after_results
  rfl

theorem dst_first : after (hostOps0 (F := Ideal)) W (Proc.devRef .tc main_v3)
    = Cert.ReferenceIdeal.Read.val_main_v3 (F := Ideal) (W (Proc.devRef .tc main_arg7)) := by
  after_results
  rfl

theorem arg4_first : after (hostOps0 (F := Ideal)) W (Proc.devRef .tc main_arg4) = W (Proc.devRef .tc main_arg4) := by
  after_results
theorem arg5_first : after (hostOps0 (F := Ideal)) W (Proc.devRef .tc main_arg5) = W (Proc.devRef .tc main_arg5) := by
  after_results
theorem arg6_first : after (hostOps0 (F := Ideal)) W (Proc.devRef .tc main_arg6) = W (Proc.devRef .tc main_arg6) := by
  after_results

/-! ## Between the calls -/

theorem sums_second (e : (⟨Cert.ReferenceIdeal.S2x1600000, .i32⟩ : BufTy).Contents (Elt Ideal))
    (hs : W (Proc.devRef .tc main_v1) = Cert.ReferenceIdeal.Read.val_main_v1 (F := Ideal) e)
    (hd : W (Proc.devRef .tc main_v3) = Cert.ReferenceIdeal.Read.val_main_v3 (F := Ideal) e) :
    after (hostOps1 (F := Ideal)) W (Proc.devRef .tc main_v41)
      = Cert.ReferenceIdeal.Layers.agg e (W (Proc.devRef .tc main_v29)) := by
  after_results
  rw [hs, hd]
  rfl

theorem recip_second : after (hostOps1 (F := Ideal)) W (Proc.devRef .tc main_v12) = W (Proc.devRef .tc main_v12) := by
  after_results

theorem feats_second : after (hostOps1 (F := Ideal)) W (Proc.devRef .tc main_v29) = W (Proc.devRef .tc main_v29) := by
  after_results

theorem weights_second : after (hostOps1 (F := Ideal)) W (Proc.devRef .tc main_v44)
    = stack (W (Proc.devRef .tc main_arg4)) (W (Proc.devRef .tc main_arg6)) := by
  after_results
  rfl

theorem bias_second : after (hostOps1 (F := Ideal)) W (Proc.devRef .tc main_v45) = biasRow (W (Proc.devRef .tc main_arg5)) := by
  after_results
  rfl

end Cert.KernelIdeal.Stages

end
-- ==== Proof.Block.lean ====
/-
  The tiled kernel's body, read at one row and one column of its 5000-row tile.

  The body multiplies the tile of neighbour sums by the tile's column of reciprocal degrees (one per row, spread over
  the 128 features), writes the result beside the tile of node features as rows of length 256, multiplies by the
  stacked 256 × 128 weights into a zero accumulator, adds the bias row and, in the first layer only, clamps below at
  zero. At row `p` and column `q` that is

      (∑ₖ (s p k · r p) · W k q  +  ∑ₖ x p k · W (128 + k) q)  +  b q          (k over the 128 features),

  the contraction over 256 split at the seam of the concatenation. Changes of float format are the identity on the
  extended reals.
-/
import proofs.«153407_j5428838662375_2_alg».proof.Proof.Gen.KernelIdeal.Skeleton
import proofs.«153407_j5428838662375_2_alg».proof.Proof.LibKeepdims
import proofs.«153407_j5428838662375_2_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The contraction of the 5000 × 256 rows with the 256 × 128 stacked weights -/

theorem lhs_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_col (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem rhs_row (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhs_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product into a zero accumulator at row `p`, column `q`: the sum over the 256 contracted positions. -/
theorem dot_read (lhs : FVec Ideal S5000x256 .bf16) (rhs : FVec Ideal S256x128 .bf16) (p : Fin 5000) (q : Fin 128) :
    matmul dot_S5000x256_S256x128_S5000x128_1_0_0_1_n_n none lhs rhs (constant (F := Ideal) S5000x128 .f32 0x00000000#32) (ix2 p q)
      = ∑ k : Fin 256, lhs (ix2 p k) * rhs (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (rhs_row _ _).trans hk
      | ⟨1, _⟩ => exact rhs_col _ _)
  rw [el, er]

/-! ## The two halves of a row of length 256 -/

/-- Left of the seam the row reads the first piece. -/
theorem cat_left (a b : FVec Ideal S5000x128 .bf16) (p : Fin 5000) (k : Fin 128) :
    concatenate S5000x256 1 [⟨S5000x128, a⟩, ⟨S5000x128, b⟩] concatenates_S5000x128_S5000x128_S5000x256_d1
      (ix2 p (⟨k.val, by omega⟩ : Fin 256)) = a (ix2 p k) :=
  concatenate_pair_apply_left (t := S5000x256) (1 : Fin 2) a b concatenates_S5000x128_S5000x128_S5000x256_d1
    (ix2 p (⟨k.val, by omega⟩ : Fin 256)) rfl (ix2 p k) fun ax => match ax with
    | ⟨0, _⟩ => rfl
    | ⟨1, _⟩ => rfl

/-- Right of the seam it reads the second piece, 128 positions back. -/
theorem cat_right (a b : FVec Ideal S5000x128 .bf16) (p : Fin 5000) (k : Fin 128) :
    concatenate S5000x256 1 [⟨S5000x128, a⟩, ⟨S5000x128, b⟩] concatenates_S5000x128_S5000x128_S5000x256_d1
      (ix2 p (⟨128 + k.val, by omega⟩ : Fin 256)) = b (ix2 p k) :=
  concatenate_pair_apply_right (t := S5000x256) (1 : Fin 2) a b concatenates_S5000x128_S5000x128_S5000x256_d1
    (ix2 p (⟨128 + k.val, by omega⟩ : Fin 256)) rfl rfl (ix2 p k)
    (fun ax hax => match ax with
      | ⟨0, _⟩ => rfl
      | ⟨1, _⟩ => absurd rfl hax)
    (by show k.val + 128 = 128 + k.val; omega)

/-! ## The payloads -/

/-- What both layers' bodies compute before the activation, at row `p` and column `q` of the tile. -/
def tileSum (x0 : Vec Ideal S5000x128 .f32) (x1 : Vec Ideal S5000x1 .f32) (x2 : Vec Ideal S5000x128 .f32)
    (x3 : Vec Ideal S256x128 .f32) (x4 : Vec Ideal S1x128 .f32) (p : Fin 5000) (q : Fin 128) : EReal :=
  ((∑ k : Fin 128, (x0 (ix2 p k) * x1 (ix2 p (0 : Fin 1))) * x3 (ix2 (⟨k.val, by omega⟩ : Fin 256) q))
    + ∑ k : Fin 128, x2 (ix2 p k) * x3 (ix2 (⟨128 + k.val, by omega⟩ : Fin 256) q)) + x4 (ix2 (0 : Fin 1) q)

/-- The rows of length 256 times the stacked weights, split at the seam. -/
theorem rows_dot (m0 : FVec Ideal S5000x128 .f32) (x1 : Vec Ideal S5000x1 .f32) (x2 : Vec Ideal S5000x128 .f32)
    (x3 : Vec Ideal S256x128 .f32) (p : Fin 5000) (q : Fin 128)
    (hm : ∀ k : Fin 128, m0 (ix2 p k) = (fun k => m0 (ix2 p k)) k) :
    matmul dot_S5000x256_S256x128_S5000x128_1_0_0_1_n_n none
        (concatenate S5000x256 1 [⟨S5000x128, truncf .bf16 m0 bitsLt_bf16_f32⟩, ⟨S5000x128, truncf .bf16 x2 bitsLt_bf16_f32⟩]
          concatenates_S5000x128_S5000x128_S5000x256_d1)
        (truncf .bf16 (shapeCast S256x128 x3 shapeCasts_S256x128_S256x128) bitsLt_bf16_f32)
        (constant (F := Ideal) S5000x128 .f32 0x00000000#32) (ix2 p q)
      = (∑ k : Fin 128, m0 (ix2 p k) * x3 (ix2 (⟨k.val, by omega⟩ : Fin 256) q))
        + ∑ k : Fin 128, x2 (ix2 p k) * x3 (ix2 (⟨128 + k.val, by omega⟩ : Fin 256) q) := by
  rw [dot_read, Cert.Sage.sum_halves, shapeCast_self]
  congr 1
  · refine Finset.sum_congr rfl fun k _ => ?_
    rw [cat_left]; rfl
  · refine Finset.sum_congr rfl fun k _ => ?_
    rw [cat_right]; rfl

/-- The mean of the neighbours' features as the body forms it: the neighbour sum times the row's reciprocal degree. -/
theorem mean_read (x0 : Vec Ideal S5000x128 .f32) (x1 : Vec Ideal S5000x1 .f32) (p : Fin 5000) (k : Fin 128) :
    mulf (F := Ideal) (s := S5000x128) (φ := .f32) (shapeCast S5000x128 x0 shapeCasts_S5000x128_S5000x128)
        (broadcastTo S5000x128 (shapeCast S5000x1 x1 shapeCasts_S5000x1_S5000x1) broadcasts_S5000x1_S5000x128) (ix2 p k)
      = x0 (ix2 p k) * x1 (ix2 p (0 : Fin 1)) := by
  rw [shapeCast_self, shapeCast_self, mulf_apply, Cert.LibKeepdims.broadcastTo_a1_ab_apply]

/-- The bias row spread over the tile's rows. -/
theorem bias_read (x4 : Vec Ideal S1x128 .f32) (p : Fin 5000) (q : Fin 128) :
    broadcastTo S5000x128 (shapeCast S1x128 x4 shapeCasts_S1x128_S1x128) broadcasts_S1x128_S5000x128 (ix2 p q)
      = x4 (ix2 (0 : Fin 1) q) := by
  rw [shapeCast_self, broadcastTo_1b_ab_apply]

/-- The first layer's body: the tile sum clamped below at zero. -/
theorem k0_pay1_apply (x0 : Vec Ideal S5000x128 .f32) (x1 : Vec Ideal S5000x1 .f32) (x2 : Vec Ideal S5000x128 .f32)
    (x3 : Vec Ideal S256x128 .f32) (x4 : Vec Ideal S1x128 .f32) (p : Fin 5000) (q : Fin 128) :
    k0_pay1 (F := Ideal) x0 x1 x2 x3 x4 (ix2 p q)
      = max (tileSum x0 x1 x2 x3 x4 p q) (Ideal.ofBits .f32 0x00000000#32) := by
  unfold k0_pay1 tileSum
  rw [maximumf_apply, addf_apply, rows_dot _ x1 x2 x3 p q (fun _ => rfl), bias_read, broadcast_apply]
  have hm : ∀ k : Fin 128,
      mulf (F := Ideal) (s := S5000x128) (φ := .f32) (shapeCast S5000x128 x0 shapeCasts_S5000x128_S5000x128)
        (broadcastTo S5000x128 (shapeCast S5000x1 x1 shapeCasts_S5000x1_S5000x1) broadcasts_S5000x1_S5000x128) (ix2 p k)
        = x0 (ix2 p k) * x1 (ix2 p (0 : Fin 1)) := fun k => mean_read x0 x1 p k
  simp only [hm]
  rfl

/-- The second layer's body: the tile sum. -/
theorem k1_pay1_apply (x0 : Vec Ideal S5000x128 .f32) (x1 : Vec Ideal S5000x1 .f32) (x2 : Vec Ideal S5000x128 .f32)
    (x3 : Vec Ideal S256x128 .f32) (x4 : Vec Ideal S1x128 .f32) (p : Fin 5000) (q : Fin 128) :
    k1_pay1 (F := Ideal) x0 x1 x2 x3 x4 (ix2 p q) = tileSum x0 x1 x2 x3 x4 p q := by
  unfold k1_pay1 tileSum
  rw [addf_apply, shapeCast_self x2, rows_dot _ x1 x2 x3 p q (fun _ => rfl), bias_read]
  congr 2
  exact Finset.sum_congr rfl fun k _ => by rw [mean_read]

end Cert.KernelIdeal.Block

end
-- ==== Proof.Tiles0.lean ====
/-
  The first layer's tiled call, from tiles to the whole array.

  Grid point `t` of 20 works on rows `5000 t … 5000 t + 4999`: the tiles of the neighbour sums, of the reciprocal
  degrees and of the node features are those rows of their arrays, the stacked weights and the bias row are taken whole
  at every point, and the point writes back those rows of the result. The 20 row ranges partition the 100000 rows, so
  the result array ends holding, at every row and column, the fused layer function of the five operand arrays as the
  call finds them, clamped below at zero.
-/
import proofs.«153407_j5428838662375_2_alg».proof.Proof.Gen.KernelIdeal.Frame
import proofs.«153407_j5428838662375_2_alg».proof.Proof.Block
import Idealize.ShloMosaic.Lib.Pipeline.Value

set_option maxRecDepth 16384

noncomputable section

namespace Cert.KernelIdeal.Tiles0

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the call leaves in its result array, from the arrays it finds. -/
def out (c : Dev nD) : S100000x128.Idx → EReal :=
  fun i => max (Cert.Sage.fused (V c main_v24 : S100000x128.Idx → EReal) (V c main_v12 : S100000x1.Idx → EReal)
      (V c main_arg0 : S100000x128.Idx → EReal) (V c main_v27 : S256x128.Idx → EReal) (V c main_v28 : S1x128.Idx → EReal) i)
    (Ideal.ofBits .f32 0x00000000#32)

/-- The block index of every window at every grid point: the row-tiled windows are at block `t`, the weights and the
    bias at block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input tiles are rows of their arrays -/

theorem sums_tile (c : Dev nD) (t : Fin cfg0.N) (p : Fin 5000) (k : Fin 128) (n : Fin 100000) (hn : n.val = 5000 * t.val + p.val) :
    (iblk0 V c 0 t : Vec Ideal S5000x128 .f32) (ix2 p k) = (V c main_v24 : S100000x128.Idx → EReal) (ix2 n k) := by
  obtain ⟨e0, e1, -⟩ := index_facts t
  unfold iblk0
  rw [View.read_apply]
  show (V c main_v24 : S100000x128.Idx → EReal) _ = (V c main_v24 : S100000x128.Idx → EReal) _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

theorem recip_tile (c : Dev nD) (t : Fin cfg0.N) (p : Fin 5000) (n : Fin 100000) (hn : n.val = 5000 * t.val + p.val) :
    (iblk0 V c 1 t : Vec Ideal S5000x1 .f32) (ix2 p (0 : Fin 1)) = (V c main_v12 : S100000x1.Idx → EReal) (ix2 n (0 : Fin 1)) := by
  obtain ⟨-, -, e0, e1, -⟩ := index_facts t
  unfold iblk0
  rw [View.read_apply]
  show (V c main_v12 : S100000x1.Idx → EReal) _ = (V c main_v12 : S100000x1.Idx → EReal) _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 1 + 1 * 0 = 0; rw [e1]

theorem feats_tile (c : Dev nD) (t : Fin cfg0.N) (p : Fin 5000) (k : Fin 128) (n : Fin 100000) (hn : n.val = 5000 * t.val + p.val) :
    (iblk0 V c 2 t : Vec Ideal S5000x128 .f32) (ix2 p k) = (V c main_arg0 : S100000x128.Idx → EReal) (ix2 n k) := by
  obtain ⟨-, -, -, -, e0, e1, -⟩ := index_facts t
  unfold iblk0
  rw [View.read_apply]
  show (V c main_arg0 : S100000x128.Idx → EReal) _ = (V c main_arg0 : S100000x128.Idx → EReal) _
  congr 1
  funext a
  apply Fin.ext
  match a with
  | ⟨0, _⟩ => show win0_2.index t (0 : Fin 2) * 5000 + 1 * p.val = n.val; rw [e0, hn]; omega
  | ⟨1, _⟩ => show win0_2.index t (1 : Fin 2) * 128 + 1 * k.val = k.val; rw [e1]; omega

theorem weights_tile (c : Dev nD) (t : Fin cfg0.N) (k : Fin 256) (q : Fin 128) :
    (iblk0 V c 3 t : Vec Ideal S256x128 .f32) (ix2 k q) = (V c main_v27 : S256x128.Idx → EReal) (ix2 k q) := by
  obtain ⟨-, -, -, -, -, -, e0, e1, -⟩ := index_facts t
  unfold iblk0
  rw [View.read_apply]
  show (V c main_v27 : S256x128.Idx → EReal) _ = (V c main_v27 : S256x128.Idx → EReal) _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * q.val = q.val; rw [e1]; omega

theorem bias_tile (c : Dev nD) (t : Fin cfg0.N) (q : Fin 128) :
    (iblk0 V c 4 t : Vec Ideal S1x128 .f32) (ix2 (0 : Fin 1) q) = (V c main_v28 : S1x128.Idx → EReal) (ix2 (0 : Fin 1) q) := by
  obtain ⟨-, -, -, -, -, -, -, -, e0, e1, -⟩ := index_facts t
  unfold iblk0
  rw [View.read_apply]
  show (V c main_v28 : S1x128.Idx → EReal) _ = (V c main_v28 : S1x128.Idx → EReal) _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## What a point writes back -/

/-- Point `t` writes back its rows of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz,
    View.ld_unit_zero (S := S256x128) hz, View.ld_unit_zero (S := S1x128) hz]
  funext j
  have hN : cfg0.N = 20 := N_0
  have ht : t.val < cfg0.N := t.isLt
  have hj0 : (j 0).val < 5000 := (j 0).isLt
  have hj1 : (j 1).val < 128 := (j 1).isLt
  obtain ⟨-, -, -, -, -, -, -, -, -, -, e0, e1⟩ := index_facts t
  have hn : 5000 * t.val + (j 0).val < 100000 := by omega
  have ej : (cfg0.win 5).xinj (grid0.coords t) j = ix2 (⟨(j 0).val, hj0⟩ : Fin 5000) (⟨(j 1).val, hj1⟩ : Fin 128) :=
    funext fun a => match a with | ⟨0, _⟩ => rfl | ⟨1, _⟩ => rfl
  have en : ((cfg0.win 5).blk t).view.emb j
      = ix2 (⟨5000 * t.val + (j 0).val, hn⟩ : Fin 100000) (⟨(j 1).val, hj1⟩ : Fin 128) := by
    funext a
    apply Fin.ext
    match a with
    | ⟨0, _⟩ => show win0_5.index t (0 : Fin 2) * 5000 + 1 * (j 0).val = 5000 * t.val + (j 0).val; rw [e0]; omega
    | ⟨1, _⟩ => show win0_5.index t (1 : Fin 2) * 128 + 1 * (j 1).val = (j 1).val; rw [e1]; omega
  show k0_pay1 (F := Ideal) (iblk0 V c 0 t) (iblk0 V c 1 t) (iblk0 V c 2 t) (iblk0 V c 3 t) (iblk0 V c 4 t)
      ((cfg0.win 5).xinj (grid0.coords t) j) = out V c (((cfg0.win 5).blk t).view.emb j)
  rw [ej, en]
  refine (k0_pay1_apply _ _ _ _ _ _ _).trans ?_
  show max (tileSum (iblk0 V c 0 t) (iblk0 V c 1 t) (iblk0 V c 2 t) (iblk0 V c 3 t) (iblk0 V c 4 t)
        (⟨(j 0).val, hj0⟩ : Fin 5000) (⟨(j 1).val, hj1⟩ : Fin 128)) (Ideal.ofBits .f32 0x00000000#32)
    = max (Cert.Sage.fusedAt (V c main_v24 : S100000x128.Idx → EReal) (V c main_v12 : S100000x1.Idx → EReal)
        (V c main_arg0 : S100000x128.Idx → EReal) (V c main_v27 : S256x128.Idx → EReal) (V c main_v28 : S1x128.Idx → EReal)
        (⟨5000 * t.val + (j 0).val, hn⟩ : Fin 100000) (⟨(j 1).val, hj1⟩ : Fin 128)) (Ideal.ofBits .f32 0x00000000#32)
  unfold tileSum Cert.Sage.fusedAt
  simp only [fun k => sums_tile V c t (⟨(j 0).val, hj0⟩ : Fin 5000) k (⟨5000 * t.val + (j 0).val, hn⟩ : Fin 100000) rfl,
    recip_tile V c t (⟨(j 0).val, hj0⟩ : Fin 5000) (⟨5000 * t.val + (j 0).val, hn⟩ : Fin 100000) rfl,
    fun k => feats_tile V c t (⟨(j 0).val, hj0⟩ : Fin 5000) k (⟨5000 * t.val + (j 0).val, hn⟩ : Fin 100000) rfl,
    weights_tile V c t, bias_tile V c t]

/-! ## The row ranges cover the array -/

theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v29).slice (win0_5.rect t)).set ↔ _
  rw [View.set_slice_whole, Rect.mem_set_unit]
  exact Iff.rfl

/-- Row `r` is in the range of point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, -, -, e0, e1⟩ := index_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e1]; omega

/-- The result array after the call. -/
theorem final (c : Dev nD) : (dat0 V c).arrAt 5 cfg0.N = out V c :=
  (dat0 V c).arrAt_eq_of_cover 5 (out V c) (fun t _ => flushed_eq V c t) cover

end Cert.KernelIdeal.Tiles0

end
-- ==== Proof.Tiles1.lean ====
/-
  The second layer's tiled call, from tiles to the whole array.

  As in the first layer, grid point `t` of 20 works on rows `5000 t … 5000 t + 4999` of the neighbour sums, of the
  reciprocal degrees and of the features — here the hidden layer's — with the stacked weights and the bias row taken
  whole, and writes back those rows of the result. The 20 row ranges partition the 100000 rows, so the result array
  ends holding the fused layer function of the five operand arrays as the call finds them; this layer has no clamp.
-/
import proofs.«153407_j5428838662375_2_alg».proof.Proof.Gen.KernelIdeal.Frame
import proofs.«153407_j5428838662375_2_alg».proof.Proof.Block
import Idealize.ShloMosaic.Lib.Pipeline.Value

set_option maxRecDepth 16384

noncomputable section

namespace Cert.KernelIdeal.Tiles1

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the call leaves in its result array, from the arrays it finds. -/
def out (c : Dev nD) : S100000x128.Idx → EReal :=
  Cert.Sage.fused (V c main_v41 : S100000x128.Idx → EReal) (V c main_v12 : S100000x1.Idx → EReal)
    (V c main_v29 : S100000x128.Idx → EReal) (V c main_v44 : S256x128.Idx → EReal) (V c main_v45 : S1x128.Idx → EReal)

/-- The block index of every window at every grid point: the row-tiled windows are at block `t`, the weights and the
    bias at block zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input tiles are rows of their arrays -/

theorem sums_tile (c : Dev nD) (t : Fin cfg1.N) (p : Fin 5000) (k : Fin 128) (n : Fin 100000) (hn : n.val = 5000 * t.val + p.val) :
    (iblk1 V c 0 t : Vec Ideal S5000x128 .f32) (ix2 p k) = (V c main_v41 : S100000x128.Idx → EReal) (ix2 n k) := by
  obtain ⟨e0, e1, -⟩ := index_facts t
  unfold iblk1
  rw [View.read_apply]
  show (V c main_v41 : S100000x128.Idx → EReal) _ = (V c main_v41 : S100000x128.Idx → EReal) _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

theorem recip_tile (c : Dev nD) (t : Fin cfg1.N) (p : Fin 5000) (n : Fin 100000) (hn : n.val = 5000 * t.val + p.val) :
    (iblk1 V c 1 t : Vec Ideal S5000x1 .f32) (ix2 p (0 : Fin 1)) = (V c main_v12 : S100000x1.Idx → EReal) (ix2 n (0 : Fin 1)) := by
  obtain ⟨-, -, e0, e1, -⟩ := index_facts t
  unfold iblk1
  rw [View.read_apply]
  show (V c main_v12 : S100000x1.Idx → EReal) _ = (V c main_v12 : S100000x1.Idx → EReal) _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 1 + 1 * 0 = 0; rw [e1]

theorem feats_tile (c : Dev nD) (t : Fin cfg1.N) (p : Fin 5000) (k : Fin 128) (n : Fin 100000) (hn : n.val = 5000 * t.val + p.val) :
    (iblk1 V c 2 t : Vec Ideal S5000x128 .f32) (ix2 p k) = (V c main_v29 : S100000x128.Idx → EReal) (ix2 n k) := by
  obtain ⟨-, -, -, -, e0, e1, -⟩ := index_facts t
  unfold iblk1
  rw [View.read_apply]
  show (V c main_v29 : S100000x128.Idx → EReal) _ = (V c main_v29 : S100000x128.Idx → EReal) _
  congr 1
  funext a
  apply Fin.ext
  match a with
  | ⟨0, _⟩ => show win1_2.index t (0 : Fin 2) * 5000 + 1 * p.val = n.val; rw [e0, hn]; omega
  | ⟨1, _⟩ => show win1_2.index t (1 : Fin 2) * 128 + 1 * k.val = k.val; rw [e1]; omega

theorem weights_tile (c : Dev nD) (t : Fin cfg1.N) (k : Fin 256) (q : Fin 128) :
    (iblk1 V c 3 t : Vec Ideal S256x128 .f32) (ix2 k q) = (V c main_v44 : S256x128.Idx → EReal) (ix2 k q) := by
  obtain ⟨-, -, -, -, -, -, e0, e1, -⟩ := index_facts t
  unfold iblk1
  rw [View.read_apply]
  show (V c main_v44 : S256x128.Idx → EReal) _ = (V c main_v44 : S256x128.Idx → EReal) _
  congr 1
  funext a
  apply Fin.ext
  match a with
  | ⟨0, _⟩ => show win1_3.index t (0 : Fin 2) * 256 + 1 * k.val = k.val; rw [e0]; omega
  | ⟨1, _⟩ => show win1_3.index t (1 : Fin 2) * 128 + 1 * q.val = q.val; rw [e1]; omega

theorem bias_tile (c : Dev nD) (t : Fin cfg1.N) (q : Fin 128) :
    (iblk1 V c 4 t : Vec Ideal S1x128 .f32) (ix2 (0 : Fin 1) q) = (V c main_v45 : S1x128.Idx → EReal) (ix2 (0 : Fin 1) q) := by
  obtain ⟨-, -, -, -, -, -, -, -, e0, e1, -⟩ := index_facts t
  unfold iblk1
  rw [View.read_apply]
  show (V c main_v45 : S1x128.Idx → EReal) _ = (V c main_v45 : S1x128.Idx → EReal) _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-! ## What a point writes back -/

/-- Point `t` writes back its rows of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz,
    View.ld_unit_zero (S := S256x128) hz, View.ld_unit_zero (S := S1x128) hz]
  funext j
  have hN : cfg1.N = 20 := N_1
  have ht : t.val < cfg1.N := t.isLt
  have hj0 : (j 0).val < 5000 := (j 0).isLt
  have hj1 : (j 1).val < 128 := (j 1).isLt
  obtain ⟨-, -, -, -, -, -, -, -, -, -, e0, e1⟩ := index_facts t
  have hn : 5000 * t.val + (j 0).val < 100000 := by omega
  have ej : (cfg1.win 5).xinj (grid1.coords t) j = ix2 (⟨(j 0).val, hj0⟩ : Fin 5000) (⟨(j 1).val, hj1⟩ : Fin 128) :=
    funext fun a => match a with | ⟨0, _⟩ => rfl | ⟨1, _⟩ => rfl
  have en : ((cfg1.win 5).blk t).view.emb j
      = ix2 (⟨5000 * t.val + (j 0).val, hn⟩ : Fin 100000) (⟨(j 1).val, hj1⟩ : Fin 128) := by
    funext a
    apply Fin.ext
    match a with
    | ⟨0, _⟩ => show win1_5.index t (0 : Fin 2) * 5000 + 1 * (j 0).val = 5000 * t.val + (j 0).val; rw [e0]; omega
    | ⟨1, _⟩ => show win1_5.index t (1 : Fin 2) * 128 + 1 * (j 1).val = (j 1).val; rw [e1]; omega
  show k1_pay1 (F := Ideal) (iblk1 V c 0 t) (iblk1 V c 1 t) (iblk1 V c 2 t) (iblk1 V c 3 t) (iblk1 V c 4 t)
      ((cfg1.win 5).xinj (grid1.coords t) j) = out V c (((cfg1.win 5).blk t).view.emb j)
  rw [ej, en]
  refine (k1_pay1_apply _ _ _ _ _ _ _).trans ?_
  show tileSum (iblk1 V c 0 t) (iblk1 V c 1 t) (iblk1 V c 2 t) (iblk1 V c 3 t) (iblk1 V c 4 t)
        (⟨(j 0).val, hj0⟩ : Fin 5000) (⟨(j 1).val, hj1⟩ : Fin 128)
    = Cert.Sage.fusedAt (V c main_v41 : S100000x128.Idx → EReal) (V c main_v12 : S100000x1.Idx → EReal)
        (V c main_v29 : S100000x128.Idx → EReal) (V c main_v44 : S256x128.Idx → EReal) (V c main_v45 : S1x128.Idx → EReal)
        (⟨5000 * t.val + (j 0).val, hn⟩ : Fin 100000) (⟨(j 1).val, hj1⟩ : Fin 128)
  unfold tileSum Cert.Sage.fusedAt
  simp only [fun k => sums_tile V c t (⟨(j 0).val, hj0⟩ : Fin 5000) k (⟨5000 * t.val + (j 0).val, hn⟩ : Fin 100000) rfl,
    recip_tile V c t (⟨(j 0).val, hj0⟩ : Fin 5000) (⟨5000 * t.val + (j 0).val, hn⟩ : Fin 100000) rfl,
    fun k => feats_tile V c t (⟨(j 0).val, hj0⟩ : Fin 5000) k (⟨5000 * t.val + (j 0).val, hn⟩ : Fin 100000) rfl,
    weights_tile V c t, bias_tile V c t]

/-! ## The row ranges cover the array -/

theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v46).slice (win1_5.rect t)).set ↔ _
  rw [View.set_slice_whole, Rect.mem_set_unit]
  exact Iff.rfl

/-- Row `r` is in the range of point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, -, -, e0, e1⟩ := index_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e1]; omega

/-- The result array after the call. -/
theorem final (c : Dev nD) : (dat1 V c).arrAt 5 cfg1.N = out V c :=
  (dat1 V c).arrAt_eq_of_cover 5 (out V c) (fun t _ => flushed_eq V c t) cover

end Cert.KernelIdeal.Tiles1

end
-- ==== Proof.KernelRun.lean ====
/-
  The idealized kernel's run, with its result array named.

  @main is four segments: host operations, the first layer's tiled call, host operations, the second layer's tiled
  call. Every unscoped buffer ends at the last boundary's contents `Gen.W4`: the fold of the two stretches of host
  operations and of what each call's write-backs leave. Read at the result buffer this names the program's result; read
  at an argument it is the launch contents.
-/
import proofs.«153407_j5428838662375_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.KernelNet.lean ====
/-
  The idealized kernel's result is the two-layer network of the specification.

  The first call finds the neighbour sums of the node features, the reciprocal clamped degrees, the node features, the
  first layer's stacked weights and bias row; what it leaves is the fused layer function of these clamped below at zero,
  which is the hidden layer. The second call finds the neighbour sums of the hidden layer, the same reciprocal degrees,
  the hidden layer, and the second layer's stacked weights and bias row; what it leaves is the second convolution. The
  result buffer ends holding it.
-/
import proofs.«153407_j5428838662375_2_alg».proof.Proof.Stages
import proofs.«153407_j5428838662375_2_alg».proof.Proof.Tiles0
import proofs.«153407_j5428838662375_2_alg».proof.Proof.Tiles1
import proofs.«153407_j5428838662375_2_alg».proof.Proof.KernelRun
import proofs.«153407_j5428838662375_2_alg».proof.Proof.Layer

set_option maxRecDepth 16384

noncomputable section

namespace Cert.KernelIdeal.Net

open Cert.KernelIdeal Cert.KernelIdeal.Gen Cert.KernelIdeal.HostLayout
open Idealize.ShloMosaic Idealize.ShloMosaic.TcCoe Idealize.SL.Sem
open Cert.ReferenceIdeal.Layers (agg deg)

variable (m : (ℓ : Loc nD τ sig) → Buf (Elt Ideal) ℓ) (ρ : Dev nD → PrngReg)

/-! ## The arguments as launched -/

abbrev feats (c : Dev nD) : FVec Ideal S100000x128 .f32 := m ((c : Thread nD τ).loc main_arg0)
abbrev w1l (c : Dev nD) : FVec Ideal S128x128 .f32 := m ((c : Thread nD τ).loc main_arg1)
abbrev b1 (c : Dev nD) : FVec Ideal S128 .f32 := m ((c : Thread nD τ).loc main_arg2)
abbrev w1r (c : Dev nD) : FVec Ideal S128x128 .f32 := m ((c : Thread nD τ).loc main_arg3)
abbrev w2l (c : Dev nD) : FVec Ideal S128x128 .f32 := m ((c : Thread nD τ).loc main_arg4)
abbrev b2 (c : Dev nD) : FVec Ideal S128 .f32 := m ((c : Thread nD τ).loc main_arg5)
abbrev w2r (c : Dev nD) : FVec Ideal S128x128 .f32 := m ((c : Thread nD τ).loc main_arg6)
abbrev edges (c : Dev nD) : (⟨Cert.ReferenceIdeal.S2x1600000, .i32⟩ : BufTy).Contents (Elt Ideal) :=
  m ((c : Thread nD τ).loc main_arg7)

/-- The hidden layer of the arguments. -/
abbrev hid (c : Dev nD) : (⟨2, ![100000, 128]⟩ : Shape).Idx → EReal :=
  Cert.Sage.hidden (agg (edges m c)) (deg (edges m c)) (feats m c) (w1l m c) (w1r m c) (b1 m c) (Ideal.ofBits .f32 0x00000000#32)

/-- The network's value on the arguments. -/
abbrev netOut (c : Dev nD) : (⟨2, ![100000, 128]⟩ : Shape).Idx → EReal :=
  Cert.Sage.net (agg (edges m c)) (deg (edges m c)) (feats m c) (w1l m c) (w1r m c) (b1 m c) (w2l m c) (w2r m c) (b2 m c)
    (Ideal.ofBits .f32 0x00000000#32)

/-! ## What the first call finds, and leaves -/

theorem entry_sums (c : Dev nD) : (V1 m ρ c main_v24 : S100000x128.Idx → EReal) = agg (edges m c) (feats m c) :=
  Stages.sums_first (W0 m ρ c)
theorem entry_recip (c : Dev nD) : (V1 m ρ c main_v12 : S100000x1.Idx → EReal) = recipCol (deg (edges m c)) :=
  Stages.recip_first (W0 m ρ c)
theorem entry_feats (c : Dev nD) : (V1 m ρ c main_arg0 : S100000x128.Idx → EReal) = feats m c :=
  Stages.feats_first (W0 m ρ c)
theorem entry_weights (c : Dev nD) : (V1 m ρ c main_v27 : S256x128.Idx → EReal) = stack (w1l m c) (w1r m c) :=
  Stages.weights_first (W0 m ρ c)
theorem entry_bias (c : Dev nD) : (V1 m ρ c main_v28 : S1x128.Idx → EReal) = biasRow (b1 m c) :=
  Stages.bias_first (W0 m ρ c)

theorem first_out (c : Dev nD) : Tiles0.out (V1 m ρ) c = hid m c := by
  have h := Cert.Sage.fused_eq_conv (agg (edges m c) (feats m c)) (feats m c) (recipCol (deg (edges m c)))
    (stack (w1l m c) (w1r m c)) (biasRow (b1 m c)) (deg (edges m c)) (w1l m c) (w1r m c) (b1 m c)
    (Ideal.ofBits .f32 0x3F800000#32) Cert.Sage.ofBits_one (Cert.ReferenceIdeal.Layers.deg_ne_zero (edges m c))
    (recipCol_apply _) (stack_upper _ _) (stack_lower _ _) (biasRow_apply _)
  unfold Tiles0.out
  rw [entry_sums m ρ c, entry_recip m ρ c, entry_feats m ρ c, entry_weights m ρ c, entry_bias m ρ c, h]
  rfl

theorem hidden_array (c : Dev nD) : (dat0 (V1 m ρ) c).arrAt 5 cfg0.N = hid m c :=
  (Tiles0.final (V1 m ρ) c).trans (first_out m ρ c)

/-! ## Between the calls -/

theorem mid_hidden (c : Dev nD) : W2 m ρ c (Proc.devRef .tc main_v29) = hid m c :=
  (W2_arr m ρ c 5).trans (hidden_array m ρ c)
theorem mid_recip (c : Dev nD) : W2 m ρ c (Proc.devRef .tc main_v12) = recipCol (deg (edges m c)) :=
  (W2_arr m ρ c 1).trans (((dat0 (V1 m ρ) c).arrAt_in 1 rfl _).trans ((A_eq0 (V1 m ρ) c 1).trans (entry_recip m ρ c)))
theorem mid_src (c : Dev nD) : W2 m ρ c (Proc.devRef .tc main_v1)
    = Cert.ReferenceIdeal.Read.val_main_v1 (F := Ideal) (edges m c) :=
  (W2_of_ne m ρ c main_v1 (by decide)).trans (Stages.src_first (W0 m ρ c))
theorem mid_dst (c : Dev nD) : W2 m ρ c (Proc.devRef .tc main_v3)
    = Cert.ReferenceIdeal.Read.val_main_v3 (F := Ideal) (edges m c) :=
  (W2_of_ne m ρ c main_v3 (by decide)).trans (Stages.dst_first (W0 m ρ c))
theorem mid_arg4 (c : Dev nD) : W2 m ρ c (Proc.devRef .tc main_arg4) = w2l m c :=
  (W2_of_ne m ρ c main_arg4 (by decide)).trans (Stages.arg4_first (W0 m ρ c))
theorem mid_arg5 (c : Dev nD) : W2 m ρ c (Proc.devRef .tc main_arg5) = b2 m c :=
  (W2_of_ne m ρ c main_arg5 (by decide)).trans (Stages.arg5_first (W0 m ρ c))
theorem mid_arg6 (c : Dev nD) : W2 m ρ c (Proc.devRef .tc main_arg6) = w2r m c :=
  (W2_of_ne m ρ c main_arg6 (by decide)).trans (Stages.arg6_first (W0 m ρ c))

/-! ## What the second call finds, and leaves -/

theorem second_sums (c : Dev nD) : (V3 m ρ c main_v41 : S100000x128.Idx → EReal) = agg (edges m c) (hid m c) :=
  (Stages.sums_second (W2 m ρ c) (edges m c) (mid_src m ρ c) (mid_dst m ρ c)).trans
    (congrArg (agg (edges m c)) (mid_hidden m ρ c))
theorem second_recip (c : Dev nD) : (V3 m ρ c main_v12 : S100000x1.Idx → EReal) = recipCol (deg (edges m c)) :=
  (Stages.recip_second (W2 m ρ c)).trans (mid_recip m ρ c)
theorem second_feats (c : Dev nD) : (V3 m ρ c main_v29 : S100000x128.Idx → EReal) = hid m c :=
  (Stages.feats_second (W2 m ρ c)).trans (mid_hidden m ρ c)
theorem second_weights (c : Dev nD) : (V3 m ρ c main_v44 : S256x128.Idx → EReal) = stack (w2l m c) (w2r m c) :=
  (Stages.weights_second (W2 m ρ c)).trans (by rw [mid_arg4 m ρ c, mid_arg6 m ρ c])
theorem second_bias (c : Dev nD) : (V3 m ρ c main_v45 : S1x128.Idx → EReal) = biasRow (b2 m c) :=
  (Stages.bias_second (W2 m ρ c)).trans (by rw [mid_arg5 m ρ c])

theorem second_out (c : Dev nD) : Tiles1.out (V3 m ρ) c = netOut m c := by
  have h := Cert.Sage.fused_eq_conv (agg (edges m c) (hid m c)) (hid m c) (recipCol (deg (edges m c)))
    (stack (w2l m c) (w2r m c)) (biasRow (b2 m c)) (deg (edges m c)) (w2l m c) (w2r m c) (b2 m c)
    (Ideal.ofBits .f32 0x3F800000#32) Cert.Sage.ofBits_one (Cert.ReferenceIdeal.Layers.deg_ne_zero (edges m c))
    (recipCol_apply _) (stack_upper _ _) (stack_lower _ _) (biasRow_apply _)
  unfold Tiles1.out
  rw [second_sums m ρ c, second_recip m ρ c, second_feats m ρ c, second_weights m ρ c, second_bias m ρ c, h]
  rfl

/-- The result buffer's last contents. -/
theorem result (c : Dev nD) : W4 m ρ c (Proc.devRef .tc main_v46) = netOut m c :=
  (W4_arr m ρ c 5).trans ((Tiles1.final (V3 m ρ) c).trans (second_out m ρ c))

/-- The run: the result buffer ends at the network's value on the arguments, the arguments as launched. -/
theorem run : θ_run defs (onTc (τ := τ) (main (F := Ideal))) ⟨m, fun _ => 0, ρ⟩ (fun r => ∀ c : Dev nD,
      r.2.mem ((c.tc : Thread nD τ).loc main_v46) = netOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Result.run m ρ)

end Cert.KernelIdeal.Net

end
-- ==== Proof.RefNet.lean ====
/-
  The reference's two layers as the network of the specification.

  Each layer's contraction with a transposed weight matrix is a sum over the 128 input features, the bias is spread over
  the rows, and the activation between the layers is the clamp below at zero: index by index the layer function, the
  hidden layer, and their composition.
-/
import proofs.«153407_j5428838662375_2_alg».proof.Proof.RefLayers

noncomputable section

namespace Cert.ReferenceIdeal.Layers

open Cert.ReferenceIdeal Cert.ReferenceIdeal.Gen Cert.ReferenceIdeal.Read Idealize.ShloMosaic Idealize.ShloMosaic.ValueIdx

/-- The first layer before its activation. -/
theorem pre_first (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x1600000, .i32⟩ : BufTy).Contents (Elt Ideal)) :
    val_main_v30 (F := Ideal) x0 x1 x2 x3 x7 = Cert.Sage.conv (val_main_v22 (F := Ideal) x0 x7) x0 x1 x3 x2 := by
  funext i
  obtain ⟨n, q, rfl⟩ : ∃ (n : Fin 100000) (q : Fin 128), i = ix2 n q := ⟨i 0, i 1, eq_ix2 i⟩
  show val_main_v30 (F := Ideal) x0 x1 x2 x3 x7 (ix2 n q) = Cert.Sage.convAt (val_main_v22 (F := Ideal) x0 x7) x0 x1 x3 x2 n q
  have eL : ∀ k : Fin 128, lidx_main_v24 (ix2 n q) k = ix2 n k := fun k => funext fun a => match a with | ⟨0, _⟩ => rfl | ⟨1, _⟩ => rfl
  have eR : ∀ k : Fin 128, idx_main_v23 (ridx_main_v24 (ix2 n q) k) = ix2 q k := fun k => funext fun a => match a with | ⟨0, _⟩ => rfl | ⟨1, _⟩ => rfl
  have eL' : ∀ k : Fin 128, lidx_main_v29 (ix2 n q) k = ix2 n k := fun k => funext fun a => match a with | ⟨0, _⟩ => rfl | ⟨1, _⟩ => rfl
  have eR' : ∀ k : Fin 128, idx_main_v28 (ridx_main_v29 (ix2 n q) k) = ix2 q k := fun k => funext fun a => match a with | ⟨0, _⟩ => rfl | ⟨1, _⟩ => rfl
  have eB : idx_main_v25 (idx_main_v26 (ix2 n q)) = ix1 q := funext fun a => match a with | ⟨0, _⟩ => rfl
  rw [val_main_v30_apply, val_main_v27_apply, val_main_v24_apply, val_main_v29_apply, val_main_v26_apply, val_main_v25_apply, eB]
  simp only [val_main_v23_apply, val_main_v28_apply, eL, eR, eL', eR', Ideal.addf_def, Cert.Sage.convAt]

/-- The second layer. -/
theorem pre_second (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S2x1600000, .i32⟩ : BufTy).Contents (Elt Ideal)) :
    val_main_v58 (F := Ideal) x0 x1 x2 x3 x4 x5 x6 x7
      = Cert.Sage.conv (val_main_v50 (F := Ideal) x0 x1 x2 x3 x7) (val_main_v31 (F := Ideal) x0 x1 x2 x3 x7) x4 x6 x5 := by
  funext i
  obtain ⟨n, q, rfl⟩ : ∃ (n : Fin 100000) (q : Fin 128), i = ix2 n q := ⟨i 0, i 1, eq_ix2 i⟩
  show val_main_v58 (F := Ideal) x0 x1 x2 x3 x4 x5 x6 x7 (ix2 n q)
    = Cert.Sage.convAt (val_main_v50 (F := Ideal) x0 x1 x2 x3 x7) (val_main_v31 (F := Ideal) x0 x1 x2 x3 x7) x4 x6 x5 n q
  have eL : ∀ k : Fin 128, lidx_main_v52 (ix2 n q) k = ix2 n k := fun k => funext fun a => match a with | ⟨0, _⟩ => rfl | ⟨1, _⟩ => rfl
  have eR : ∀ k : Fin 128, idx_main_v51 (ridx_main_v52 (ix2 n q) k) = ix2 q k := fun k => funext fun a => match a with | ⟨0, _⟩ => rfl | ⟨1, _⟩ => rfl
  have eL' : ∀ k : Fin 128, lidx_main_v57 (ix2 n q) k = ix2 n k := fun k => funext fun a => match a with | ⟨0, _⟩ => rfl | ⟨1, _⟩ => rfl
  have eR' : ∀ k : Fin 128, idx_main_v56 (ridx_main_v57 (ix2 n q) k) = ix2 q k := fun k => funext fun a => match a with | ⟨0, _⟩ => rfl | ⟨1, _⟩ => rfl
  have eB : idx_main_v53 (idx_main_v54 (ix2 n q)) = ix1 q := funext fun a => match a with | ⟨0, _⟩ => rfl
  rw [val_main_v58_apply, val_main_v55_apply, val_main_v52_apply, val_main_v57_apply, val_main_v54_apply, val_main_v53_apply, eB]
  simp only [val_main_v51_apply, val_main_v56_apply, eL, eR, eL', eR', Ideal.addf_def, Cert.Sage.convAt]

/-- The hidden layer: the first layer clamped below at zero. -/
theorem hidden_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x1600000, .i32⟩ : BufTy).Contents (Elt Ideal)) :
    val_main_v31 (F := Ideal) x0 x1 x2 x3 x7
      = Cert.Sage.hidden (agg x7) (deg x7) x0 x1 x3 x2 (Ideal.ofBits .f32 0x00000000#32) := by
  funext i
  rw [val_main_v31_apply, val_main_call0_v0_apply, val_main_call0_cst_apply, Ideal.maximumf_def, Ideal.ofBits_def, pre_first,
    mean_first]
  rfl

/-- The reference's result is the two-layer network of the specification. -/
theorem result_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S2x1600000, .i32⟩ : BufTy).Contents (Elt Ideal)) :
    val_main_v58 (F := Ideal) x0 x1 x2 x3 x4 x5 x6 x7
      = Cert.Sage.net (agg x7) (deg x7) x0 x1 x3 x2 x4 x6 x5 (Ideal.ofBits .f32 0x00000000#32) := by
  rw [pre_second, mean_second, hidden_eq]
  rfl

end Cert.ReferenceIdeal.Layers

end
-- ==== Proof.lean ====
/-
  A two-layer mean-aggregating graph convolution: the tiled kernel against its plain reference, on the extended reals.

  Both programs gather each edge's source row, add it into the edge's target row, count the edges into each target,
  clamp the count below at one, and apply twice the layer

      (∑ₖ mean n k · w_l q k  +  b q)  +  ∑ₖ x n k · w_r q k,        mean = neighbour sum / clamped count,

  with a clamp below at zero between the layers. The reference divides, multiplies by each weight matrix transposed and
  adds the bias between the two products. The kernel multiplies by the reciprocal of the clamped count, carries the
  gathered rows and its matrix operands through a narrower float format (the identity on the extended reals), and per
  tile of 5000 nodes multiplies the mean and the node features, laid side by side, by the two weight matrices transposed
  and stacked, adding the bias last. The two agree index by index: a quotient by a non-zero extended real is the product
  with its reciprocal, a sum over 256 terms is the sum of its halves, and addition is commutative and associative. The
  precondition is not used. Nothing of the kernel was rewritten when it was read on the extended reals, so that claim is
  trivial; the frames are the generated ones, the reference's being its run with the result dropped.
-/
import proofs.«153407_j5428838662375_2_alg».proof.Defs
import proofs.«153407_j5428838662375_2_alg».proof.Proof.Gen.Kernel
import proofs.«153407_j5428838662375_2_alg».proof.Proof.Gen.Kernel.Skeleton
import proofs.«153407_j5428838662375_2_alg».proof.Proof.Gen.Kernel.Launch
import proofs.«153407_j5428838662375_2_alg».proof.Proof.Gen.Kernel.Points
import proofs.«153407_j5428838662375_2_alg».proof.Proof.Gen.Kernel.Frame
import proofs.«153407_j5428838662375_2_alg».proof.Proof.Gen.KernelIdeal
import proofs.«153407_j5428838662375_2_alg».proof.Proof.Gen.KernelIdeal.Skeleton
import proofs.«153407_j5428838662375_2_alg».proof.Proof.Gen.KernelIdeal.Launch
import proofs.«153407_j5428838662375_2_alg».proof.Proof.Gen.KernelIdeal.Points
import proofs.«153407_j5428838662375_2_alg».proof.Proof.Gen.KernelIdeal.Frame
import proofs.«153407_j5428838662375_2_alg».proof.Proof.Gen.ReferenceIdeal
import proofs.«153407_j5428838662375_2_alg».proof.Proof.Gen.ReferenceIdeal.Run
import proofs.«153407_j5428838662375_2_alg».proof.Proof.Gen.ReferenceIdeal.Read
import proofs.«153407_j5428838662375_2_alg».proof.Proof.Gen.Pre_finite_inputs
import proofs.«153407_j5428838662375_2_alg».proof.Proof.KernelNet
import proofs.«153407_j5428838662375_2_alg».proof.Proof.RefNet
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network's value on the kernel's arguments: the kernel's by its run, the
    reference's by its run on arguments that agree. -/
theorem algebraic : Cert.algebraic_KernelIdeal_ReferenceIdeal := by
  intro m ρ m' ρ' _ hagree
  refine ⟨fun c => Cert.KernelIdeal.Net.netOut m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, Cert.ReferenceIdeal.Layers.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
